-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S16777216 : Shape := ⟨1, ![16777216]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel
  bcast_S_S16777216 : S_.BroadcastsInDim S16777216 (![] : Fin 0 → Fin S16777216.rank)
  reducesTo_S16777216_S_d0 : S16777216.ReducesTo [0] S_

variable [Facts]

def fn {F : FTy → Type} [FloatOps F] (main_arg0 : FVec F S33554432 .f32) (main_arg1 : FVec F S16777216 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  main_v8
-- ==== Kernel.lean ====
abbrev S33554432 : Shape := ⟨1, ![33554432]⟩
abbrev S16777216 : Shape := ⟨1, ![16777216]⟩
abbrev S2x131072x128 : Shape := ⟨3, ![2, 131072, 128]⟩
abbrev S131072x128 : Shape := ⟨2, ![131072, 128]⟩
abbrev S2x4096x128 : Shape := ⟨3, ![2, 4096, 128]⟩
abbrev S4096x128 : Shape := ⟨2, ![4096, 128]⟩
abbrev S1x4096x128 : Shape := ⟨3, ![1, 4096, 128]⟩

abbrev nBuf : Space → Nat
  | .hbm => 6
  | .vmem => 6
  | .smem => 0
  | _ => 0

abbrev bufTy : (tb : Table) → Fin (tcTables nBuf tb) → BufTy
  | .hbm, ⟨0, _⟩ => ⟨S33554432, .f32⟩
  | .hbm, ⟨1, _⟩ => ⟨S16777216, .f32⟩
  | .hbm, ⟨2, _⟩ => ⟨S2x131072x128, .f32⟩
  | .hbm, ⟨3, _⟩ => ⟨S131072x128, .f32⟩
  | .hbm, ⟨4, _⟩ => ⟨S2x131072x128, .f32⟩
  | .hbm, ⟨5, _⟩ => ⟨S33554432, .f32⟩
  | .local _ .vmem, ⟨0, _⟩ => ⟨S2x4096x128, .f32⟩
  | .local _ .vmem, ⟨1, _⟩ => ⟨S2x4096x128, .f32⟩
  | .local _ .vmem, ⟨2, _⟩ => ⟨S4096x128, .f32⟩
  | .local _ .vmem, ⟨3, _⟩ => ⟨S4096x128, .f32⟩
  | .local _ .vmem, ⟨4, _⟩ => ⟨S2x4096x128, .f32⟩
  | .local _ .vmem, ⟨5, _⟩ => ⟨S2x4096x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S33554432_S2x131072x128 : S33554432.ShapeCasts S2x131072x128
  shapeCasts_S16777216_S131072x128 : S16777216.ShapeCasts S131072x128
  inb_S2x4096x128_S1x4096x128_0_0_0 : ∀ a, (![0, 0, 0] : Fin 3 → Nat) a + S1x4096x128.size a ≤ S2x4096x128.size a
  h_S1x4096x128 : 0 < S1x4096x128.numel
  shapeCasts_S1x4096x128_S4096x128 : S1x4096x128.ShapeCasts S4096x128
  inb_S2x4096x128_S1x4096x128_1_0_0 : ∀ a, (![1, 0, 0] : Fin 3 → Nat) a + S1x4096x128.size a ≤ S2x4096x128.size a
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S4096x128_S1x4096x128 : S4096x128.ShapeCasts S1x4096x128
  shapeCasts_S2x131072x128_S33554432 : S2x131072x128.ShapeCasts S33554432
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4096x128.size a ≤ S2x131072x128.size a
  hwx0_0 : ∀ i : grid0.Coords, EltTy.bits .f32 = 32 ∨ (Rect.block (s := S2x131072x128) S2x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x4096x128.size a ≤ S2x131072x128.size a
  hwx0_2 : ∀ i : grid0.Coords, EltTy.bits .f32 = 32 ∨ (Rect.block (s := S2x131072x128) S2x4096x128.size (cc0_transform_2 i) (hinb0_2 i)).WholeWords (EltTy.packing .f32)

variable [Facts₀]

abbrev win0_0 : Pipeline.Window sig grid0 :=
  Pipeline.Window.ofSpec (Memref.whole main_v0) S2x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S33554432 : Shape := ⟨1, ![33554432]⟩
abbrev S16777216 : Shape := ⟨1, ![16777216]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S16777216, .f32⟩
  | .hbm, ⟨2, _⟩ => ⟨S16777216, .f32⟩
  | .hbm, ⟨3, _⟩ => ⟨S16777216, .f32⟩
  | .hbm, ⟨4, _⟩ => ⟨S_, .f32⟩
  | .hbm, ⟨5, _⟩ => ⟨S_, .f32⟩
  | .hbm, ⟨6, _⟩ => ⟨S16777216, .f32⟩
  | .hbm, ⟨7, _⟩ => ⟨S16777216, .i1⟩
  | .hbm, ⟨8, _⟩ => ⟨S_, .f32⟩
  | .hbm, ⟨9, _⟩ => ⟨S16777216, .f32⟩
  | .hbm, ⟨10, _⟩ => ⟨S16777216, .i1⟩
  | .hbm, ⟨11, _⟩ => ⟨S_, .f32⟩
  | .hbm, ⟨12, _⟩ => ⟨S_, .f32⟩
  | .hbm, ⟨13, _⟩ => ⟨S16777216, .f32⟩
  | .hbm, ⟨14, _⟩ => ⟨S16777216, .f32⟩
  | .hbm, ⟨15, _⟩ => ⟨S16777216, .f32⟩
  | .hbm, ⟨16, _⟩ => ⟨S_, .f32⟩
  | .hbm, ⟨17, _⟩ => ⟨S16777216, .f32⟩
  | .hbm, ⟨18, _⟩ => ⟨S16777216, .f32⟩
  | .hbm, ⟨19, _⟩ => ⟨S16777216, .f32⟩
  | .hbm, ⟨20, _⟩ => ⟨S_, .f32⟩
  | .hbm, ⟨21, _⟩ => ⟨S16777216, .f32⟩
  | .hbm, ⟨22, _⟩ => ⟨S16777216, .f32⟩
  | .hbm, ⟨23, _⟩ => ⟨S16777216, .f32⟩
  | .hbm, ⟨24, _⟩ => ⟨S16777216, .f32⟩
  | .hbm, ⟨25, _⟩ => ⟨S33554432, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_cst_0 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_cst_1 : Ref sig .tc := ⟨.hbm, 11, rfl⟩
abbrev main_call0_call0_call0_v0 : Ref sig .tc := ⟨.hbm, 12, rfl⟩
abbrev main_call0_call0_call0_v1 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_v0 : Ref sig .tc := ⟨.hbm, 19, rfl⟩
abbrev main_call0_cst_0 : Ref sig .tc := ⟨.hbm, 20, rfl⟩
abbrev main_call0_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩

abbrev nD : Nat := 1
abbrev τ : Topo := Topo.v7x

variable {F : FTy → Type} [FloatOps F]

class Facts₀ : Prop where
  slices_S33554432_S16777216_0 : S33554432.Slices ![0] S16777216
  slices_S33554432_S16777216_16777216 : S33554432.Slices ![16777216] S16777216
  bcast_S_S16777216 : S_.BroadcastsInDim S16777216 (![] : Fin 0 → Fin S16777216.rank)
  concatenates_S16777216_S16777216_S33554432_d0 : Shape.Concatenates [S16777216, S16777216] S33554432 0

variable [Facts₀]

class Facts : Prop extends Facts₀ where

variable [Facts]
-- ==== Proof.SeluEntry.lean ====
/-
  One entry of the second half of the result, at the exact reading of floats (an extended real each).

  From an entry `p` of the first half of `x`, the matching entry `q` of the second half and the entry `a`
  of the scale vector, both programs form `a · selu(p) + q` with
  `selu(p) = scale · (p if p > 0 else alpha · (eᵖ − 1))`.
  One program writes `eᵖ − 1` as the exponential less the word of `1.0`; the other applies the
  operation "exponential minus one" to `0 if p > 0 else p`, the guarded argument. The outer choice keeps `p`
  exactly when the guard replaced the argument by `0`, so the guarded value is only read where it is `p`
  itself; there "exponential minus one" is `eᵖ − 1` by definition, and the word `0x3F800000` is the real
  one. No finiteness is used: the equation holds for every extended real `p`, `q`, `a`.
-/
import Idealize.ShloMosaic.PureOps.Ideal
import Idealize.ShloMosaic.Lib.IdealHost

noncomputable section

namespace Cert.SeluEntry

open Idealize.ShloMosaic

/-- The entry with `eᵖ − 1` spelt as the exponential less the word of one. -/
def viaExp (p q a : Ideal .f32) : Ideal .f32 :=
  FloatOps.addf
    (FloatOps.mulf a
      (FloatOps.mulf (FloatOps.ofBits .f32 0x3F867D5F#32)
        (Scalar.select (FloatOps.cmpf .ogt p (FloatOps.ofBits .f32 0x00000000#32)) p
          (FloatOps.mulf (FloatOps.ofBits .f32 0x3FD62D7D#32)
            (FloatOps.subf (FloatOps.exp p) (FloatOps.ofBits .f32 0x3F800000#32))))))
    q

/-- The entry with "exponential minus one" applied to the guarded argument `0 if p > 0 else p`. -/
def viaExpm1 (p q a : Ideal .f32) : Ideal .f32 :=
  FloatOps.addf
    (FloatOps.mulf a
      (FloatOps.mulf (FloatOps.ofBits .f32 0x3F867D5F#32)
        (Scalar.select (FloatOps.cmpf .ogt p (FloatOps.ofBits .f32 0x00000000#32)) p
          (FloatOps.mulf (FloatOps.ofBits .f32 0x3FD62D7D#32)
            (FloatOps.hostUnary .expm1
              (Scalar.select (FloatOps.cmpf .ogt p (FloatOps.ofBits .f32 0x00000000#32))
                (FloatOps.ofBits .f32 0x00000000#32) p))))))
    q

/-- The two spellings are one function: where `p > 0` both keep `p`; elsewhere the guarded argument is `p`
    and "exponential minus one" of it is `eᵖ − 1`. -/
theorem viaExpm1_eq_viaExp (p q a : Ideal .f32) : viaExpm1 p q a = viaExp p q a := by
  unfold viaExpm1 viaExp
  by_cases h : FloatOps.cmpf .ogt p (FloatOps.ofBits (F := Ideal) .f32 0x00000000#32) = 1#1
  · rw [h]; rfl
  · have h0 : FloatOps.cmpf .ogt p (FloatOps.ofBits (F := Ideal) .f32 0x00000000#32) = 0#1 := by
      generalize FloatOps.cmpf .ogt p (FloatOps.ofBits (F := Ideal) .f32 0x00000000#32) = b at h
      revert h; revert b; decide
    rw [h0]
    show _ + q = _ + q
    congr 3
    show Scalar.select 0#1 p _ = Scalar.select 0#1 p _
    unfold Scalar.select
    rw [if_neg (by decide), if_neg (by decide), if_neg (by decide)]
    show _ * (Ideal.exp p - 1) = _ * (Ideal.exp p - Ideal.ofBits .f32 0x3F800000#32)
    rw [Ideal.ofBits_one_f32]

end Cert.SeluEntry

end
-- ==== Proof.HalvesSpec.lean ====
/-
  The result as one function of the two argument arrays, and the same function seen through the
  [2, 131072, 128] arrangement.

  `x` has 2·16777216 entries, `a` has 16777216. The result keeps the first half of `x` and replaces entry
  `16777216 + k` of the second half by `a k · selu(x k) + x (16777216 + k)` (`wholeOut`).
  Laid out row-major as [2, 131072, 128] (entry `n` at plane `n / 16777216`, row `(n % 16777216) / 128`,
  lane `n % 128`) with `a` as [131072, 128], the same result is: plane 0 kept, and plane 1 at (r, l) replaced by
  `a (r, l) · selu(plane 0 at (r, l)) + plane 1 at (r, l)` (`cubeOut`). Re-laying the arguments, applying
  `cubeOut` and flattening again is `wholeOut` (`flatten_cubeOut`): only row-major positions are compared.
-/
import proofs.«106876_j48112223650434_1_alg».proof.Proof.SeluEntry
import Idealize.ShloMosaic.Lib.ValueIdx
import Idealize.ShloMosaic.Lib.Pipeline.Value

noncomputable section

namespace Cert.HalvesSpec

open Idealize.ShloMosaic Idealize.ShloMosaic.ValueIdx

abbrev SFlat : Shape := ⟨1, ![33554432]⟩
abbrev SHalf : Shape := ⟨1, ![16777216]⟩
abbrev SCube : Shape := ⟨3, ![2, 131072, 128]⟩
abbrev SPlane : Shape := ⟨2, ![131072, 128]⟩

/-- The result, entry by entry: the first half of `x` kept, the second half updated from the first half and `a`. -/
def wholeOut (x : SFlat.Idx → Ideal .f32) (a : SHalf.Idx → Ideal .f32) : SFlat.Idx → Ideal .f32 := fun i =>
  if (i 0).val < 16777216 then x i
  else Cert.SeluEntry.viaExp (x (ix1 (n := 33554432) ⟨(i 0).val % 16777216, by omega⟩)) (x i)
    (a (ix1 (n := 16777216) ⟨(i 0).val % 16777216, by omega⟩))

/-- The same in the [2, 131072, 128] arrangement: plane 0 kept, plane 1 updated from plane 0 and `a` at the same
    row and lane. -/
def cubeOut (X : SCube.Idx → Ideal .f32) (A : SPlane.Idx → Ideal .f32) : SCube.Idx → Ideal .f32 := fun j =>
  if (j 0).val = 0 then X j
  else Cert.SeluEntry.viaExp (X (ix3 (n0 := 2) (n1 := 131072) (n2 := 128) 0 (j 1) (j 2)))
    (X (ix3 (n0 := 2) (n1 := 131072) (n2 := 128) 1 (j 1) (j 2)))
    (A (ix2 (n0 := 131072) (n1 := 128) (j 1) (j 2)))

/-- Plane 0 is kept. -/
theorem cubeOut_plane0 (X : SCube.Idx → Ideal .f32) (A : SPlane.Idx → Ideal .f32) (r : Fin 131072) (l : Fin 128) :
    cubeOut X A (ix3 (0 : Fin 2) r l) = X (ix3 (0 : Fin 2) r l) := if_pos rfl

/-- Plane 1 is updated from plane 0 and `a` at the same row and lane. -/
theorem cubeOut_plane1 (X : SCube.Idx → Ideal .f32) (A : SPlane.Idx → Ideal .f32) (r : Fin 131072) (l : Fin 128) :
    cubeOut X A (ix3 (1 : Fin 2) r l)
      = Cert.SeluEntry.viaExp (X (ix3 (0 : Fin 2) r l)) (X (ix3 (1 : Fin 2) r l)) (A (ix2 r l)) :=
  if_neg (by show ¬ (1 : Nat) = 0; omega)

/-- An entry of `x` re-laid as [2, 131072, 128], at plane `s`, row `r`, lane `l`, is entry
    `(s · 131072 + r) · 128 + l` of `x`. -/
theorem cube_apply (x : SFlat.Idx → Ideal .f32) (h : SFlat.ShapeCasts SCube) (s : Fin 2) (r : Fin 131072) (l : Fin 128)
    (n : Fin 33554432) (hn : n.val = (s.val * 131072 + r.val) * 128 + l.val) :
    shapeCast SCube x h (ix3 s r l) = x (ix1 n) := by
  refine shapeCast_apply x h (ix3 s r l) (ix1 n) ?_
  rw [Shape.rowMajor_val_one, Shape.rowMajor_val_three]
  exact hn

/-- An entry of `a` re-laid as [131072, 128], at row `r`, lane `l`, is entry `r · 128 + l` of `a`. -/
theorem plane_apply (a : SHalf.Idx → Ideal .f32) (h : SHalf.ShapeCasts SPlane) (r : Fin 131072) (l : Fin 128)
    (n : Fin 16777216) (hn : n.val = r.val * 128 + l.val) :
    shapeCast SPlane a h (ix2 r l) = a (ix1 n) := by
  refine shapeCast_apply a h (ix2 r l) (ix1 n) ?_
  rw [Shape.rowMajor_val_one, Shape.rowMajor_val_two]
  exact hn

/-- Re-laying `x` and `a`, updating plane 1 from plane 0, and flattening again is `wholeOut`. -/
theorem flatten_cubeOut (x : SFlat.Idx → Ideal .f32) (a : SHalf.Idx → Ideal .f32)
    (h0 : SFlat.ShapeCasts SCube) (h1 : SHalf.ShapeCasts SPlane) (h2 : SCube.ShapeCasts SFlat) :
    shapeCast SFlat (cubeOut (shapeCast SCube x h0) (shapeCast SPlane a h1)) h2 = wholeOut x a := by
  funext i
  obtain ⟨n, rfl⟩ : ∃ n : Fin 33554432, i = ix1 n := ⟨i 0, eq_ix1 i⟩
  have hn : n.val < 33554432 := n.isLt
  -- the plane, row and lane of position `n`
  let s : Fin 2 := ⟨n.val / 16777216, by omega⟩
  let r : Fin 131072 := ⟨n.val % 16777216 / 128, by omega⟩
  let l : Fin 128 := ⟨n.val % 128, by omega⟩
  have hs : s.val = n.val / 16777216 := rfl
  have hr : r.val = n.val % 16777216 / 128 := rfl
  have hl : l.val = n.val % 128 := rfl
  have hpos : (SCube.rowMajor (ix3 s r l)).val = (SFlat.rowMajor (ix1 n)).val := by
    rw [Shape.rowMajor_val_one, Shape.rowMajor_val_three]
    show (s.val * 131072 + r.val) * 128 + l.val = n.val
    omega
  rw [shapeCast_apply _ h2 (ix1 n) (ix3 s r l) hpos]
  unfold cubeOut wholeOut
  show (if s.val = 0 then _ else _) = (if n.val < 16777216 then _ else _)
  by_cases hlt : n.val < 16777216
  · have hs0 : s.val = 0 := by omega
    rw [if_pos hs0, if_pos hlt]
    exact cube_apply x h0 s r l n (by omega)
  · have hs1 : ¬ s.val = 0 := by omega
    rw [if_neg hs1, if_neg hlt]
    show Cert.SeluEntry.viaExp (shapeCast SCube x h0 (ix3 0 r l)) (shapeCast SCube x h0 (ix3 1 r l))
        (shapeCast SPlane a h1 (ix2 r l)) = _
    rw [cube_apply x h0 0 r l ⟨n.val % 16777216, by omega⟩ (by show n.val % 16777216 = (0 * 131072 + r.val) * 128 + l.val; omega),
      cube_apply x h0 1 r l n (by show n.val = (1 * 131072 + r.val) * 128 + l.val; omega),
      plane_apply a h1 r l ⟨n.val % 16777216, by omega⟩ (by show n.val % 16777216 = r.val * 128 + l.val; omega)]

end Cert.HalvesSpec

end
-- ==== Proof.KernelBlocks.lean ====
/-
  What the kernel's region leaves in its output array, in the [2, 131072, 128] arrangement.

  The region runs over 32 grid points. At point `t` the body sees rows `4096·t … 4096·t + 4095` of both planes
  of `x` (a [2, 4096, 128] block) and of `a` (a [4096, 128] block), and writes a [2, 4096, 128] block with two
  stores: plane 0 of the block is plane 0 of the input block, and plane 1 at (r, l) is
  `a (r, l) · selu(plane 0 at (r, l)) + plane 1 at (r, l)` (`blockOut`). The two stores tile the block, so the
  block read back is that one function of the block index. Row `r` of a block at point `t` is row
  `4096·t + r` of the array, the same for the three windows, so what point `t` writes back is block `t` of
  `cubeOut` of the two arrays the region finds. The 32 blocks cover all 131072 rows (row `R` lies in block
  `R / 4096`), hence the output array ends holding `cubeOut` of those arrays.
-/
import proofs.«106876_j48112223650434_1_alg».proof.Proof.Gen.KernelIdeal.Frame
import proofs.«106876_j48112223650434_1_alg».proof.Proof.HalvesSpec
import Idealize.ShloMosaic.Lib.ValueIdx
import Idealize.ShloMosaic.Lib.ValueLayout
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)
open Cert.HalvesSpec (cubeOut cubeOut_plane0 cubeOut_plane1)
open Cert.SeluEntry (viaExp)

/-! ## One block -/

/-- The output block as one function of the two input blocks: plane 0 kept, plane 1 updated from plane 0 and the
    block of `a` at the same row and lane. -/
def blockOut (x0 : S2x4096x128.Idx → Ideal .f32) (x1 : S4096x128.Idx → Ideal .f32) : S2x4096x128.Idx → Ideal .f32 := fun y =>
  if (y 0).val = 0 then x0 y
  else viaExp (x0 (ix3 (n0 := 2) (n1 := 4096) (n2 := 128) 0 (y 1) (y 2)))
    (x0 (ix3 (n0 := 2) (n1 := 4096) (n2 := 128) 1 (y 1) (y 2)))
    (x1 (ix2 (n0 := 4096) (n1 := 128) (y 1) (y 2)))

theorem blockOut_plane0 (x0 : S2x4096x128.Idx → Ideal .f32) (x1 : S4096x128.Idx → Ideal .f32) (r : Fin 4096) (l : Fin 128) :
    blockOut x0 x1 (ix3 (0 : Fin 2) r l) = x0 (ix3 (0 : Fin 2) r l) := if_pos rfl

theorem blockOut_plane1 (x0 : S2x4096x128.Idx → Ideal .f32) (x1 : S4096x128.Idx → Ideal .f32) (r : Fin 4096) (l : Fin 128) :
    blockOut x0 x1 (ix3 (1 : Fin 2) r l) = viaExp (x0 (ix3 (0 : Fin 2) r l)) (x0 (ix3 (1 : Fin 2) r l)) (x1 (ix2 r l)) :=
  if_neg (by show ¬ (1 : Nat) = 0; omega)

/-- The first store's value at (·, r, l): the entry (0, r, l) of what the first load read. -/
theorem keep_payload (v0 : Vec Ideal S1x4096x128 .f32) (u : Fin 1) (r : Fin 4096) (l : Fin 128) :
    k0_pay2 v0 (ix3 u r l) = v0 (ix3 (0 : Fin 1) r l) := by
  unfold k0_pay2 k0_pay1
  exact (shapeCast_ab_1ab_apply _ _ u r l).trans (shapeCast_1ab_ab_apply _ _ r l)

/-- The second store's value at (·, r, l): the updated entry, from the entries (0, r, l) of the two plane loads
    and the entry (r, l) of the load of `a`'s block. -/
theorem update_payload (v0 v2 : Vec Ideal S1x4096x128 .f32) (v4 : Vec Ideal S4096x128 .f32) (u : Fin 1) (r : Fin 4096)
    (l : Fin 128) :
    k0_pay3 v0 v2 v4 (ix3 u r l) = viaExp (v0 (ix3 (0 : Fin 1) r l)) (v2 (ix3 (0 : Fin 1) r l)) (v4 (ix2 r l)) := by
  unfold k0_pay3 k0_pay1
  refine (shapeCast_ab_1ab_apply _ _ u r l).trans ?_
  have e0 : shapeCast S4096x128 v0 shapeCasts_S1x4096x128_S4096x128 (ix2 r l) = v0 (ix3 (0 : Fin 1) r l) :=
    shapeCast_1ab_ab_apply _ _ r l
  have e2 : shapeCast S4096x128 v2 shapeCasts_S1x4096x128_S4096x128 (ix2 r l) = v2 (ix3 (0 : Fin 1) r l) :=
    shapeCast_1ab_ab_apply _ _ r l
  have e4 : shapeCast S4096x128 v4 shapeCasts_S4096x128_S4096x128 = v4 := shapeCast_self _ _
  show viaExp (shapeCast S4096x128 v0 shapeCasts_S1x4096x128_S4096x128 (ix2 r l))
      (shapeCast S4096x128 v2 shapeCasts_S1x4096x128_S4096x128 (ix2 r l))
      (shapeCast S4096x128 v4 shapeCasts_S4096x128_S4096x128 (ix2 r l)) = _
  rw [e0, e2, e4]

/-- Where the three loads and the two stores sit in their buffers: plane 0, plane 1, and the whole block of `a`. -/
theorem idx_plane0 (u : Fin 1) (r : Fin 4096) (l : Fin 128) : r0_0.idx (ix3 u r l) = ix3 (0 : Fin 2) r l := by
  funext a; apply Fin.ext
  match a with
  | ⟨0, _⟩ => show 0 + 1 * u.val = 0; omega
  | ⟨1, _⟩ => show 0 + 1 * r.val = r.val; omega
  | ⟨2, _⟩ => show 0 + 1 * l.val = l.val; omega
theorem idx_plane1 (u : Fin 1) (r : Fin 4096) (l : Fin 128) : r0_1.idx (ix3 u r l) = ix3 (1 : Fin 2) r l := by
  funext a; apply Fin.ext
  match a with
  | ⟨0, _⟩ => show 1 + 1 * u.val = 1; omega
  | ⟨1, _⟩ => show 0 + 1 * r.val = r.val; omega
  | ⟨2, _⟩ => show 0 + 1 * l.val = l.val; omega
theorem idx_whole (r : Fin 4096) (l : Fin 128) : r0_2.idx (ix2 r l) = ix2 r l := by
  funext a; apply Fin.ext
  match a with
  | ⟨0, _⟩ => show 0 + 1 * r.val = r.val; omega
  | ⟨1, _⟩ => show 0 + 1 * l.val = l.val; omega

/-- The second store's piece is `blockOut` on plane 1. -/
theorem piece1 (x0 : Vec Ideal S2x4096x128 .f32) (x1 : Vec Ideal S4096x128 .f32) (x : r0_1.shape.Idx) :
    k0_pay3 (View.ld x0 r0_0) (View.ld x0 r0_1) (View.ld x1 r0_2) x = blockOut x0 x1 (r0_1.emb x) := by
  obtain ⟨u, r, l, rfl⟩ : ∃ (u : Fin 1) (r : Fin 4096) (l : Fin 128), x = ix3 u r l := ⟨x 0, x 1, x 2, eq_ix3 x⟩
  refine (update_payload _ _ _ u r l).trans ?_
  show viaExp (x0 (r0_0.idx (ix3 (0 : Fin 1) r l))) (x0 (r0_1.idx (ix3 (0 : Fin 1) r l))) (x1 (r0_2.idx (ix2 r l)))
    = blockOut x0 x1 (r0_1.idx (ix3 u r l))
  rw [idx_plane0, idx_plane1, idx_whole, idx_plane1, blockOut_plane1]

/-- The first store's piece is `blockOut` on plane 0. -/
theorem piece0 (x0 : Vec Ideal S2x4096x128 .f32) (x1 : Vec Ideal S4096x128 .f32) (x : r0_0.shape.Idx) :
    k0_pay2 (View.ld x0 r0_0) x = blockOut x0 x1 (r0_0.emb x) := by
  obtain ⟨u, r, l, rfl⟩ : ∃ (u : Fin 1) (r : Fin 4096) (l : Fin 128), x = ix3 u r l := ⟨x 0, x 1, x 2, eq_ix3 x⟩
  refine (keep_payload _ u r l).trans ?_
  show x0 (r0_0.idx (ix3 (0 : Fin 1) r l)) = blockOut x0 x1 (r0_0.idx (ix3 u r l))
  rw [idx_plane0, idx_plane0, blockOut_plane0]

/-- What the body leaves in the output buffer is `blockOut` of the two input blocks: each of the two stores holds
    `blockOut` on its plane, and the two planes cover the block. -/
theorem out_eq_blockOut (x0 : Vec Ideal S2x4096x128 .f32) (x1 : Vec Ideal S4096x128 .f32) :
    out0_2 x0 x1 = blockOut x0 x1 := by
  funext y
  unfold out0_2
  refine View.canon_apply_of_pieces (Val := Elt Ideal) (e := .f32) (blockOut x0 x1) _ ?_ y (cover0_2 _ _ y)
  intro p hp
  simp only [List.mem_cons, List.mem_nil_iff, or_false] at hp
  rcases hp with rfl | rfl
  · exact piece1 x0 x1
  · exact piece0 x0 x1

/-! ## A block of the output is a block of `cubeOut` -/

/-- Row `r` of block `T` is a row of the array. -/
theorem row_lt (T : Nat) (hT : T < 32) (r : Fin 4096) : T * 4096 + r.val < 131072 := by omega

/-- If the input blocks are rows `4096·T …` of two arrays `X`, `A`, then `blockOut` at a block index is `cubeOut X A`
    at the array index with the same plane and lane and row `4096·T + r`. -/
theorem blockOut_eq_cubeOut (X : S2x131072x128.Idx → Ideal .f32) (A : S131072x128.Idx → Ideal .f32)
    (x0 : S2x4096x128.Idx → Ideal .f32) (x1 : S4096x128.Idx → Ideal .f32) (T : Nat) (hT : T < 32)
    (h0 : ∀ (s : Fin 2) (r : Fin 4096) (l : Fin 128),
      x0 (ix3 s r l) = X (ix3 s (⟨T * 4096 + r.val, row_lt T hT r⟩ : Fin 131072) l))
    (h1 : ∀ (r : Fin 4096) (l : Fin 128), x1 (ix2 r l) = A (ix2 (⟨T * 4096 + r.val, row_lt T hT r⟩ : Fin 131072) l))
    (y : S2x4096x128.Idx) (i : S2x131072x128.Idx) (hi0 : (i 0).val = (y 0).val)
    (hi1 : (i 1).val = T * 4096 + (y 1).val) (hi2 : (i 2).val = (y 2).val) :
    blockOut x0 x1 y = cubeOut X A i := by
  obtain ⟨s, r, l, rfl⟩ : ∃ (s : Fin 2) (r : Fin 4096) (l : Fin 128), y = ix3 s r l := ⟨y 0, y 1, y 2, eq_ix3 y⟩
  obtain rfl : i = ix3 s (⟨T * 4096 + r.val, row_lt T hT r⟩ : Fin 131072) l := by
    funext a; apply Fin.ext
    match a with
    | ⟨0, _⟩ => exact hi0
    | ⟨1, _⟩ => exact hi1
    | ⟨2, _⟩ => exact hi2
  match s with
  | ⟨0, _⟩ =>
    show blockOut x0 x1 (ix3 (0 : Fin 2) r l) = cubeOut X A (ix3 (0 : Fin 2) _ l)
    rw [blockOut_plane0, cubeOut_plane0, h0]
  | ⟨1, _⟩ =>
    show blockOut x0 x1 (ix3 (1 : Fin 2) r l) = cubeOut X A (ix3 (1 : Fin 2) _ l)
    rw [blockOut_plane1, cubeOut_plane1, h0, h0, h1]

variable (m : (ℓ : Loc nD τ sig) → Buf (Elt Ideal) ℓ)

/-- The three index maps, decided over the 32 points: every window is at block row `t` and at block 0 on its
    other axes. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 3) = 0 ∧ win0_2.index t (1 : Fin 3) = t.val ∧ win0_2.index t (2 : Fin 3) = 0 :=
  (by decide +kernel : ∀ t : Fin grid0.N, _)

/-- Every block row is some point's. -/
theorem idx_onto : ∀ q : Fin 32, ∃ t : Fin cfg0.N, t.val = q.val :=
  (by decide +kernel : ∀ q : Fin 32, ∃ t : Fin grid0.N, t.val = q.val)

/-- The block of `x` (as the region finds it, re-laid) at point `t`: rows `4096·t …` of both planes. -/
theorem read_x (c : Dev nD) (t : Fin cfg0.N) (ht : t.val < 32) (s : Fin 2) (r : Fin 4096) (l : Fin 128) :
    iblk m c 0 t (ix3 s r l) = V m c main_v0 (ix3 s (⟨t.val * 4096 + r.val, row_lt t.val ht r⟩ : Fin 131072) l) := by
  obtain ⟨e0, e1, e2, -, -, -, -, -⟩ := idx_facts t
  show V m c main_v0 (((cfg0.win 0).blk t).view.emb (ix3 s r l)) = _
  refine congrArg (V m c main_v0) ?_
  funext a; apply Fin.ext
  match a with
  | ⟨0, _⟩ => show win0_0.index t (0 : Fin 3) * 2 + 1 * s.val = s.val; omega
  | ⟨1, _⟩ => show win0_0.index t (1 : Fin 3) * 4096 + 1 * r.val = t.val * 4096 + r.val; omega
  | ⟨2, _⟩ => show win0_0.index t (2 : Fin 3) * 128 + 1 * l.val = l.val; omega

/-- The block of `a` (re-laid) at point `t`: rows `4096·t …`. -/
theorem read_a (c : Dev nD) (t : Fin cfg0.N) (ht : t.val < 32) (r : Fin 4096) (l : Fin 128) :
    iblk m c 1 t (ix2 r l) = V m c main_v1 (ix2 (⟨t.val * 4096 + r.val, row_lt t.val ht r⟩ : Fin 131072) l) := by
  obtain ⟨-, -, -, e3, e4, -, -, -⟩ := idx_facts t
  show V m c main_v1 (((cfg0.win 1).blk t).view.emb (ix2 r l)) = _
  refine congrArg (V m c main_v1) ?_
  funext a; apply Fin.ext
  match a with
  | ⟨0, _⟩ => show win0_1.index t (0 : Fin 2) * 4096 + 1 * r.val = t.val * 4096 + r.val; omega
  | ⟨1, _⟩ => show win0_1.index t (1 : Fin 2) * 128 + 1 * l.val = l.val; omega

/-- WHAT POINT `t` WRITES BACK is block `t` of `cubeOut` of the two arrays the region finds. -/
theorem flushed_eq (c : Dev nD) (t : Fin cfg0.N) :
    (dats m 0 c).flushed 2 t
      = ((cfg0.win 2).blk t).view.read (Elt Ideal) (cubeOut (V m c main_v0) (V m c main_v1)) := by
  have ht : t.val < 32 := Nat.lt_of_lt_of_eq t.isLt N_0
  obtain ⟨-, -, -, -, -, e5, e6, e7⟩ := idx_facts t
  show (cfg0.win 2).cut (grid0.coords t) ((dats m 0 c).after 2 t) = _
  rw [after0_2, out_eq_blockOut (iblk m c 0 t) (iblk m c 1 t)]
  funext j
  refine blockOut_eq_cubeOut (V m c main_v0) (V m c main_v1) (iblk m c 0 t) (iblk m c 1 t) t.val ht
    (read_x m c t ht) (read_a m c t ht) j (((cfg0.win 2).blk t).view.emb j) ?_ ?_ ?_
  · show win0_2.index t (0 : Fin 3) * 2 + 1 * (j 0).val = (j 0).val; omega
  · show win0_2.index t (1 : Fin 3) * 4096 + 1 * (j 1).val = t.val * 4096 + (j 1).val; omega
  · show win0_2.index t (2 : Fin 3) * 128 + 1 * (j 2).val = (j 2).val; omega

/-- An index of the array is in point `t`'s block iff each coordinate is in the block's range on its axis. -/
theorem mem_blk (t : Fin cfg0.N) (i : S2x131072x128.Idx) :
    i ∈ ((cfg0.win 2).blk t).view.set ↔ ∀ a : Fin 3, win0_2.index t a * S2x4096x128.size a ≤ (i a).val
      ∧ (i a).val < win0_2.index t a * S2x4096x128.size a + S2x4096x128.size a := by
  show i ∈ ((View.whole main_v2).slice (win0_2.rect t)).set ↔ _
  rw [View.set_slice_whole, Rect.mem_set_unit]
  exact Iff.rfl

/-- Every index of the output array is in the block of the point its row falls in. -/
theorem covered (i : S2x131072x128.Idx) :
    ∃ t : Fin cfg0.N, (cfg0.win 2).flush t = true ∧ i ∈ ((cfg0.win 2).blk t).view.set := by
  have hi0 : (i 0).val < 2 := (i 0).isLt
  have hi1 : (i 1).val < 131072 := (i 1).isLt
  have hi2 : (i 2).val < 128 := (i 2).isLt
  obtain ⟨t, ht⟩ := idx_onto ⟨(i 1).val / 4096, by omega⟩
  have ht' : t.val = (i 1).val / 4096 := ht
  obtain ⟨-, -, -, -, -, e5, e6, e7⟩ := idx_facts t
  refine ⟨t, flush0_2 t, ?_⟩
  rw [mem_blk]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 4096 ≤ (i 1).val ∧ (i 1).val < win0_2.index t (1 : Fin 3) * 4096 + 4096; omega
  | ⟨2, _⟩ => show win0_2.index t (2 : Fin 3) * 128 ≤ (i 2).val ∧ (i 2).val < win0_2.index t (2 : Fin 3) * 128 + 128; omega

/-- THE OUTPUT ARRAY after the region: `cubeOut` of the two arrays the region finds. -/
theorem final (c : Dev nD) :
    (dats m 0 c).arrAt 2 cfg0.N = cubeOut (V m c main_v0) (V m c main_v1) :=
  (dats m 0 c).arrAt_eq_of_cover 2 _ (fun t _ => flushed_eq m c t) covered

end Cert.KernelIdeal.Blocks

end
-- ==== Proof.KernelRun.lean ====
/-
  The kernel program's run, read back as one function of the two argument arrays.

  The program re-lays `x` as [2, 131072, 128] and `a` as [131072, 128], runs the region over them, and
  flattens the region's output array back to 33554432 entries. The region finds the two re-laid arrays
  (`entry_x`, `entry_a`) and leaves `cubeOut` of them in its output array; the flattening reads that array
  (`tail_out`); and flattening `cubeOut` of the re-laid arguments is `wholeOut` of the arguments. The argument
  arrays are written by no line.
-/
import proofs.«106876_j48112223650434_1_alg».proof.Proof.KernelBlocks
import Idealize.ShloMosaic.Lib.StableHlo.Run

set_option maxRecDepth 16384

noncomputable section

namespace Cert.KernelIdeal.WholeRun

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)
open Cert.HalvesSpec (cubeOut wholeOut flatten_cubeOut)

variable (m : (ℓ : Loc nD τ sig) → Buf (Elt Ideal) ℓ) (ρ : Dev nD → PrngReg)

/-- The region finds `x` re-laid as [2, 131072, 128]. -/
theorem entry_x (c : Dev nD) :
    (V m c main_v0 : S2x131072x128.Idx → Ideal .f32)
      = shapeCast S2x131072x128 (m ((c : Thread nD τ).loc main_arg0)) shapeCasts_S33554432_S2x131072x128 := by
  show StableHlo.after hostOps0 (fun b => m (c, b)) (Proc.devRef .tc main_v0) = _
  after_results
  rfl

/-- The region finds `a` re-laid as [131072, 128]. -/
theorem entry_a (c : Dev nD) :
    (V m c main_v1 : S131072x128.Idx → Ideal .f32)
      = shapeCast S131072x128 (m ((c : Thread nD τ).loc main_arg1)) shapeCasts_S16777216_S131072x128 := by
  show StableHlo.after hostOps0 (fun b => m (c, b)) (Proc.devRef .tc main_v1) = _
  after_results
  rfl

/-- The program's result: the region's output array flattened, which is `wholeOut` of the argument arrays. -/
theorem tail_out (c : Dev nD) :
    (Pipeline.afterTail₀ cfgs (dats m) 0 (V0 m) [hostOps1] c main_v3 : S33554432.Idx → Ideal .f32)
      = wholeOut (m ((c : Thread nD τ).loc main_arg0)) (m ((c : Thread nD τ).loc main_arg1)) := by
  have hw : (Pipeline.withArrays spec0 c (V0 m c) (fun w => (dats m 0 c).arrAt w cfg0.N) (Proc.devRef .tc main_v2)
        : S2x131072x128.Idx → Ideal .f32)
      = cubeOut (V m c main_v0) (V m c main_v1) :=
    (Pipeline.withArrays_arr spec0 launch0.win.arr_inj c _ _ 2).trans (Cert.KernelIdeal.Blocks.final m c)
  unfold Pipeline.afterTail₀
  show StableHlo.after hostOps1 _ (Proc.devRef .tc main_v3) = _
  after_results
  show shapeCast S33554432
      (Pipeline.withArrays spec0 c (V0 m c) (fun w => (dats m 0 c).arrAt w cfg0.N) (Proc.devRef .tc main_v2))
      shapeCasts_S2x131072x128_S33554432 = _
  rw [hw, entry_x, entry_a]
  exact flatten_cubeOut _ _ _ _ _

/-- On every device, from any memory with zero counters: every weakly fair execution of the kernel program terminates
    with the result buffer at `wholeOut` of the argument arrays and the argument arrays unchanged. -/
theorem run : θ_run defs (onTc (τ := τ) (main (F := Ideal))) ⟨m, fun _ => 0, ρ⟩ fun r => ∀ c : Dev nD,
      r.2.mem ((c.tc : Thread nD τ).loc main_v3)
          = wholeOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (tail_out m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.WholeRun

end
-- ==== Proof.RefRun.lean ====
/-
  The reference program's run, read back.

  The reference cuts `x` into its two halves `p` and `q`, forms `selu(p)` through three nested helper
  functions (selu calls elu, which calls the two forms of `where`), multiplies by `a`, adds `q`, and joins
  `p` and the sum end to end. Each helper's operations run in place at its call, on buffers of their own, so
  the whole program is one straight line of 24 host operations (`ops`, `main_eq`). A straight line
  terminates with every buffer at the fold of the operations over the launch contents; the fold at the
  result buffer is `refOut` of the two argument arrays, and the argument arrays are never written.
-/
import proofs.«106876_j48112223650434_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- What the reference computes from the contents of `x` and `a`: with `p`, `q` the halves of `x`,
    `c = (p > 0)`, the result is `p` followed by
    `a · (scale · (p where c else alpha · expm1(0 where c else p))) + q`. -/
def refOut (x : FVec F S33554432 .f32) (a : FVec F S16777216 .f32) : FVec F S33554432 .f32 :=
  concatenate S33554432 0
    [⟨S16777216, extractStridedSlice S16777216 ![0] x slices_S33554432_S16777216_0⟩,
     ⟨S16777216, addf
        (mulf a
          (mulf (broadcastInDim S16777216 ![] bcast_S_S16777216 (constant S_ .f32 0x3F867D5F#32))
            (select
              (cmpf .ogt (extractStridedSlice S16777216 ![0] x slices_S33554432_S16777216_0)
                (broadcastInDim S16777216 ![] bcast_S_S16777216 (constant S_ .f32 0x00000000#32)))
              (extractStridedSlice S16777216 ![0] x slices_S33554432_S16777216_0)
              (mulf (broadcastInDim S16777216 ![] bcast_S_S16777216 (constant S_ .f32 0x3FD62D7D#32))
                (Host.expm1
                  (select
                    (cmpf .ogt (extractStridedSlice S16777216 ![0] x slices_S33554432_S16777216_0)
                      (broadcastInDim S16777216 ![] bcast_S_S16777216 (constant S_ .f32 0x00000000#32)))
                    (broadcastInDim S16777216 ![] bcast_S_S16777216 (constant S_ .f32 0x00000000#32))
                    (extractStridedSlice S16777216 ![0] x slices_S33554432_S16777216_0)))))))
        (extractStridedSlice S16777216 ![16777216] x slices_S33554432_S16777216_16777216)⟩]
    concatenates_S16777216_S16777216_S33554432_d0

/-- The program's 24 operations in order, each helper's operations listed where it is called: the two halves;
    selu's `alpha`; elu's zero, its broadcast and the comparison, twice; a third zero; `where`'s conversion,
    broadcast and choice (the guarded argument); "exponential minus one"; `alpha` converted, broadcast and
    multiplied in; the second `where`'s choice; selu's `scale`, its broadcast and the product; then the
    product with `a`, the sum with `q` and the concatenation. -/
abbrev ops : List (HloOp τ sig (Elt F)) :=
  [ unary main_arg0 main_v0 ((extractStridedSlice S16777216 ![0] · slices_S33554432_S16777216_0) : (⟨S33554432, .f32⟩ : BufTy).Contents (Elt F) → (⟨S16777216, .f32⟩ : BufTy).Contents (Elt F)),
    unary main_arg0 main_v1 ((extractStridedSlice S16777216 ![16777216] · slices_S33554432_S16777216_16777216) : (⟨S33554432, .f32⟩ : BufTy).Contents (Elt F) → (⟨S16777216, .f32⟩ : BufTy).Contents (Elt F)),
    TRef.nullary main_call0.cst (constant S_ .f32 0x3FD62D7D#32),
    TRef.nullary main_call0.call0.cst (constant S_ .f32 0x00000000#32),
    TRef.unary main_call0.call0.cst main_call0.call0.v0 (broadcastInDim S16777216 ![] bcast_S_S16777216),
    TRef.binary (.of main_v0) main_call0.call0.v0 main_call0.call0.v1 (cmpf .ogt),
    TRef.nullary main_call0.call0.cst_0 (constant S_ .f32 0x00000000#32),
    TRef.unary main_call0.call0.cst_0 main_call0.call0.v2 (broadcastInDim S16777216 ![] bcast_S_S16777216),
    TRef.binary (.of main_v0) main_call0.call0.v2 main_call0.call0.v3 (cmpf .ogt),
    TRef.nullary main_call0.call0.cst_1 (constant S_ .f32 0x00000000#32),
    TRef.unary main_call0.call0.cst_1 main_call0.call0.call0.v0 id,
    TRef.unary main_call0.call0.call0.v0 main_call0.call0.call0.v1 (broadcastInDim S16777216 ![] bcast_S_S16777216),
    TRef.ternary main_call0.call0.v3 main_call0.call0.call0.v1 (.of main_v0) main_call0.call0.call0.v2 select,
    TRef.unary main_call0.call0.call0.v2 main_call0.call0.v5 Host.expm1,
    TRef.unary main_call0.cst main_call0.call0.v6 id,
    TRef.unary main_call0.call0.v6 main_call0.call0.v7 (broadcastInDim S16777216 ![] bcast_S_S16777216),
    TRef.binary main_call0.call0.v7 main_call0.call0.v5 main_call0.call0.v8 mulf,
    TRef.ternary main_call0.call0.v1 (.of main_v0) main_call0.call0.v8 main_call0.call0.call1.v0 select,
    TRef.nullary main_call0.cst_0 (constant S_ .f32 0x3F867D5F#32),
    TRef.unary main_call0.cst_0 main_call0.v1 (broadcastInDim S16777216 ![] bcast_S_S16777216),
    TRef.binary main_call0.v1 main_call0.call0.call1.v0 main_call0.v2 mulf,
    binary main_arg1 main_v2 main_v3 (mulf : (⟨S16777216, .f32⟩ : BufTy).Contents (Elt F) → (⟨S16777216, .f32⟩ : BufTy).Contents (Elt F) → (⟨S16777216, .f32⟩ : BufTy).Contents (Elt F)),
    binary main_v3 main_v1 main_v4 (addf : (⟨S16777216, .f32⟩ : BufTy).Contents (Elt F) → (⟨S16777216, .f32⟩ : BufTy).Contents (Elt F) → (⟨S16777216, .f32⟩ : BufTy).Contents (Elt F)),
    binary main_v0 main_v4 main_v5 ((fun a b => concatenate S33554432 0 [⟨S16777216, a⟩, ⟨S16777216, b⟩] concatenates_S16777216_S16777216_S33554432_d0) : (⟨S16777216, .f32⟩ : BufTy).Contents (Elt F) → (⟨S16777216, .f32⟩ : BufTy).Contents (Elt F) → (⟨S33554432, .f32⟩ : BufTy).Contents (Elt F)) ]

set_option maxRecDepth 2048 in
/-- The program is that straight line: the helpers' definitions unfolded at their calls, sequencing reassociated. -/
theorem main_eq (c : Dev nD) : main (F := F) c = seq ops := by
  simp only [main, fn_selu.body, fn_elu.body, fn_where.body, fn_where_0.body, seq, bind_assoc, pure_bind]

set_option maxRecDepth 8192 in
/-- The fold at the result buffer is `refOut` of the argument arrays' contents: each operation's result is read
    at its own buffer and passed on unchanged elsewhere, all by computation. -/
theorem out_eq (V : Valuation τ sig (Elt F)) :
    after ops V (main_v5 : DevRef τ sig) = refOut (V (main_arg0 : DevRef τ sig)) (V (main_arg1 : DevRef τ sig)) := by
  simp only [after_cons, after_nil]
  rfl

/-- No operation writes `x`. -/
theorem arg0_eq (V : Valuation τ sig (Elt F)) :
    after ops V (main_arg0 : DevRef τ sig) = V (main_arg0 : DevRef τ sig) := by
  simp only [after_cons, after_nil]
  rfl

/-- No operation writes `a`. -/
theorem arg1_eq (V : Valuation τ sig (Elt F)) :
    after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., nullary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., unary_bufs_sub .., unary_bufs_sub .., binary_bufs_sub .., ternary_bufs_sub ..,
    nullary_bufs_sub .., unary_bufs_sub .., binary_bufs_sub .., binary_bufs_sub .., binary_bufs_sub .., binary_bufs_sub ..⟩

/-- On every device, for any float values, from any memory with zero counters: every weakly fair execution of the
    reference terminates with the result buffer at `refOut` of the argument arrays and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v5).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.HandRun

end
-- ==== Proof.RefValue.lean ====
/-
  The reference's result is `wholeOut` of its arguments.

  The reference joins the first half `p` of `x` and the updated second half end to end. An entry below
  16777216 falls in the first piece and is the entry of `x` at the same place. An entry `n ≥ 16777216` falls in
  the second piece at `k = n − 16777216`, where the sum `a · selu(p) + q` reads `p k = x k`, `q k = x n` and `a k`;
  the reference spells `selu` with "exponential minus one" of a guarded argument, which is the same function as the
  spelling with the exponential (`viaExpm1_eq_viaExp`).
-/
import proofs.«106876_j48112223650434_1_alg».proof.Proof.RefRun
import proofs.«106876_j48112223650434_1_alg».proof.Proof.HalvesSpec
import Idealize.ShloMosaic.Lib.ValueIdx
import Idealize.ShloMosaic.Lib.Pipeline.Value

noncomputable section

namespace Cert.ReferenceIdeal.HandValue

open Cert.ReferenceIdeal Cert.ReferenceIdeal.Gen Idealize.ShloMosaic Idealize.ShloMosaic.ValueIdx
open Cert.HalvesSpec (wholeOut)
open Cert.SeluEntry (viaExp viaExpm1 viaExpm1_eq_viaExp)

/-- Entry `k` of the first half of `x` is entry `k` of `x`. -/
theorem low_apply (x : FVec Ideal S33554432 .f32) (k : Fin 16777216) (n : Fin 33554432) (hn : n.val = k.val) :
    extractStridedSlice S16777216 ![0] x slices_S33554432_S16777216_0 (ix1 k) = x (ix1 n) :=
  extractStridedSlice_apply _ x _ (ix1 k) (ix1 n) fun b => match b with
    | ⟨0, _⟩ => by show n.val = 0 + k.val; omega

/-- Entry `k` of the second half of `x` is entry `16777216 + k` of `x`. -/
theorem high_apply (x : FVec Ideal S33554432 .f32) (k : Fin 16777216) (n : Fin 33554432) (hn : n.val = 16777216 + k.val) :
    extractStridedSlice S16777216 ![16777216] x slices_S33554432_S16777216_16777216 (ix1 k) = x (ix1 n) :=
  extractStridedSlice_apply _ x _ (ix1 k) (ix1 n) fun b => match b with
    | ⟨0, _⟩ => by show n.val = 16777216 + k.val; omega

/-- The reference's result, entry by entry, is `wholeOut`. -/
theorem refOut_eq_wholeOut (x : FVec Ideal S33554432 .f32) (a : FVec Ideal S16777216 .f32) :
    HandRun.refOut x a = wholeOut x a := by
  funext i
  obtain ⟨n, rfl⟩ : ∃ n : Fin 33554432, i = ix1 n := ⟨i 0, eq_ix1 i⟩
  have hn : n.val < 33554432 := n.isLt
  unfold HandRun.refOut wholeOut
  show _ = if n.val < 16777216 then x (ix1 n)
    else viaExp (x (ix1 (n := 33554432) ⟨n.val % 16777216, by omega⟩)) (x (ix1 n))
      (a (ix1 (n := 16777216) ⟨n.val % 16777216, by omega⟩))
  by_cases hlt : n.val < 16777216
  · rw [if_pos hlt]
    refine (concatenate_pair_apply_left (t := S33554432) (s₁ := S16777216) (s₂ := S16777216) (0 : Fin 1) _ _ _ (ix1 n) rfl
      (ix1 (⟨n.val, hlt⟩ : Fin 16777216)) ?_).trans ?_
    · intro b
      match b with
      | ⟨0, _⟩ => rfl
    · exact low_apply x ⟨n.val, hlt⟩ n rfl
  · rw [if_neg hlt]
    have hk : n.val % 16777216 < 16777216 := by omega
    refine (concatenate_pair_apply_right (t := S33554432) (s₁ := S16777216) (s₂ := S16777216) (0 : Fin 1) _ _ _ (ix1 n) rfl rfl
      (ix1 (⟨n.val % 16777216, hk⟩ : Fin 16777216)) ?_ ?_).trans ?_
    · intro b hb
      match b with
      | ⟨0, _⟩ => exact absurd rfl hb
    · show n.val % 16777216 + 16777216 = n.val
      omega
    · show viaExpm1
          (extractStridedSlice S16777216 ![0] x slices_S33554432_S16777216_0 (ix1 (⟨n.val % 16777216, hk⟩ : Fin 16777216)))
          (extractStridedSlice S16777216 ![16777216] x slices_S33554432_S16777216_16777216 (ix1 (⟨n.val % 16777216, hk⟩ : Fin 16777216)))
          (a (ix1 (⟨n.val % 16777216, hk⟩ : Fin 16777216))) = _
      rw [low_apply x ⟨n.val % 16777216, hk⟩ ⟨n.val % 16777216, by omega⟩ rfl,
        high_apply x ⟨n.val % 16777216, hk⟩ n (by show n.val = 16777216 + n.val % 16777216; omega),
        viaExpm1_eq_viaExp]

end Cert.ReferenceIdeal.HandValue

end
-- ==== Proof.lean ====
/-
  The kernel and its reference compute the same array, at the exact reading of floats.

  With `p`, `q` the two halves of `x` (16777216 entries each) and `a` of the same length, both programs return
  `p` followed by `a · selu(p) + q`, where `selu(p) = scale · (p if p > 0 else alpha · (eᵖ − 1))` with the same
  two float words for `scale` and `alpha` on both sides.

  * The kernel program re-lays `x` as [2, 131072, 128] and `a` as [131072, 128], updates plane 1 from plane 0
    block by block (32 blocks of 4096 rows), and flattens the result: its result array is `wholeOut` of the
    arguments (Proof/KernelBlocks.lean for the region's output array, Proof/KernelRun.lean for the lines around it,
    Proof/HalvesSpec.lean for the row-major bookkeeping).
  * The reference cuts, computes and joins whole arrays: its result array is `refOut` of the arguments
    (Proof/RefRun.lean), which is `wholeOut` entry by entry (Proof/RefValue.lean).
  * The one difference of spelling — `eᵖ − 1` as the exponential less one, against "exponential minus one" of the
    guarded argument `0 if p > 0 else p` — is no difference of value (Proof/SeluEntry.lean). It holds at every
    extended real, so the precondition (finite inputs) is never opened.

  The three frame claims: the two kernel programs by their frame certificates, the reference by its run with the result
  dropped. The idealization rewrote no operation, so there is nothing to preserve.
-/
import proofs.«106876_j48112223650434_1_alg».proof.Defs
import proofs.«106876_j48112223650434_1_alg».proof.Proof.Gen.Kernel
import proofs.«106876_j48112223650434_1_alg».proof.Proof.Gen.Kernel.Skeleton
import proofs.«106876_j48112223650434_1_alg».proof.Proof.Gen.Kernel.Launch
import proofs.«106876_j48112223650434_1_alg».proof.Proof.Gen.Kernel.Points
import proofs.«106876_j48112223650434_1_alg».proof.Proof.Gen.Kernel.Frame
import proofs.«106876_j48112223650434_1_alg».proof.Proof.Gen.KernelIdeal
import proofs.«106876_j48112223650434_1_alg».proof.Proof.Gen.KernelIdeal.Skeleton
import proofs.«106876_j48112223650434_1_alg».proof.Proof.Gen.KernelIdeal.Launch
import proofs.«106876_j48112223650434_1_alg».proof.Proof.Gen.KernelIdeal.Points
import proofs.«106876_j48112223650434_1_alg».proof.Proof.Gen.KernelIdeal.Frame
import proofs.«106876_j48112223650434_1_alg».proof.Proof.Gen.ReferenceIdeal
import proofs.«106876_j48112223650434_1_alg».proof.Proof.Gen.Pre_finite_inputs
import proofs.«106876_j48112223650434_1_alg».proof.Proof.KernelRun
import proofs.«106876_j48112223650434_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_kernel : Cert.frame_Kernel := fun m ρ _ => Cert.Kernel.Gen.frame m ρ

/-- So does the kernel program read at the exact instance. -/
theorem frame_kernelIdeal : Cert.frame_KernelIdeal := fun m ρ _ => Cert.KernelIdeal.Gen.frame m ρ

/-- The reference is a straight line of host operations none of which writes an argument. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The idealization rewrote nothing. -/
theorem preserves : Cert.preserves_Kernel_KernelIdeal := trivial

/-- Both programs end with `wholeOut` of the (agreeing) argument arrays. -/
theorem algebraic : Cert.algebraic_KernelIdeal_ReferenceIdeal := by
  intro m ρ m' ρ' _ hagree
  refine ⟨_, Cert.KernelIdeal.WholeRun.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2]
  exact Cert.ReferenceIdeal.HandValue.refOut_eq_wholeOut _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
